-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256 : Shape := ⟨2, ![512, 256]⟩
abbrev S256x1024 : Shape := ⟨2, ![256, 1024]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S512x256 .f32) (main_arg1 : FVec F S256x1024 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  main_v8
-- ==== Kernel.lean ====
abbrev S512x256 : Shape := ⟨2, ![512, 256]⟩
abbrev S256x1024 : Shape := ⟨2, ![256, 1024]⟩
abbrev S_ : Shape := ⟨0, ![]⟩
abbrev S1024 : Shape := ⟨1, ![1024]⟩
abbrev S1x1024 : Shape := ⟨2, ![1, 1024]⟩
abbrev S512x1024 : Shape := ⟨2, ![512, 1024]⟩
abbrev S256x256 : Shape := ⟨2, ![256, 256]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x1024, .f32⟩
  | .hbm, ⟨2, _⟩ => ⟨S256x1024, .f32⟩
  | .hbm, ⟨3, _⟩ => ⟨S_, .f32⟩
  | .hbm, ⟨4, _⟩ => ⟨S1024, .f32⟩
  | .hbm, ⟨5, _⟩ => ⟨S1x1024, .f32⟩
  | .hbm, ⟨6, _⟩ => ⟨S512x1024, .f32⟩
  | .local _ .vmem, ⟨0, _⟩ => ⟨S256x256, .f32⟩
  | .local _ .vmem, ⟨1, _⟩ => ⟨S256x256, .f32⟩
  | .local _ .vmem, ⟨2, _⟩ => ⟨S256x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S256x1024_S1024_d0 : S256x1024.ReducesTo [0] S1024
  h_S_ : 0 < S_.numel
  bcast_S1024_S1x1024_1 : S1024.BroadcastsInDim S1x1024 (![1] : Fin 1 → Fin S1x1024.rank)
  inb_S256x256_S256x256_0_0 : ∀ a, (![0, 0] : Fin 2 → Nat) a + S256x256.size a ≤ S256x256.size a
  h_S256x256 : 0 < S256x256.numel
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S256x256_S256 : S256x256.Reduces [1] S256
  shapeCasts_S256_S256x1 : S256.ShapeCasts S256x1
  bitsLt_bf16_f32 : FTy.bits .bf16 < FTy.bits .f32
  broadcasts_S256x1_S256x1024 : S256x1.Broadcasts S256x1024
  broadcasts_S1x1024_S256x1024 : S1x1024.Broadcasts S256x1024
  dot_S256x256_S256x1024_S256x1024_1_0_0_1_n_n_wf : DotDims.WF S256x256 S256x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S512x256.size a
  hwx0_0 : ∀ i : grid0.Coords, EltTy.bits .f32 = 32 ∨ (Rect.block (s := S512x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S512x1024.size a
  hwx0_3 : ∀ i : grid0.Coords, EltTy.bits .f32 = 32 ∨ (Rect.block (s := S512x1024) S256x1024.size (cc0_transform_3 i) (hinb0_3 i)).WholeWords (EltTy.packing .f32)

variable [Facts₀]

def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf

abbrev win0_0 : Pipeline.Window sig grid0 :=
  Pipeline.Window.ofSpec (Memref.whole main_arg0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x256 : Shape := ⟨2, ![512, 256]⟩
abbrev S256x1024 : Shape := ⟨2, ![256, 1024]⟩
abbrev S512x256x1 : Shape := ⟨3, ![512, 256, 1]⟩
abbrev S1x256x1024 : Shape := ⟨3, ![1, 256, 1024]⟩
abbrev S512x256x1024 : Shape := ⟨3, ![512, 256, 1024]⟩
abbrev S_ : Shape := ⟨0, ![]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S256x1024, .f32⟩
  | .hbm, ⟨2, _⟩ => ⟨S512x256x1, .f32⟩
  | .hbm, ⟨3, _⟩ => ⟨S1x256x1024, .f32⟩
  | .hbm, ⟨4, _⟩ => ⟨S512x256x1024, .f32⟩
  | .hbm, ⟨5, _⟩ => ⟨S512x256x1024, .f32⟩
  | .hbm, ⟨6, _⟩ => ⟨S512x256x1024, .f32⟩
  | .hbm, ⟨7, _⟩ => ⟨S512x256x1024, .f32⟩
  | .hbm, ⟨8, _⟩ => ⟨S_, .f32⟩
  | .hbm, ⟨9, _⟩ => ⟨S512x1024, .f32⟩
  | .hbm, ⟨10, _⟩ => ⟨S512x1024, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  bcast_S512x256_S512x256x1_0_1 : S512x256.BroadcastsInDim S512x256x1 (![0, 1] : Fin 2 → Fin S512x256x1.rank)
  bcast_S256x1024_S1x256x1024_1_2 : S256x1024.BroadcastsInDim S1x256x1024 (![1, 2] : Fin 2 → Fin S1x256x1024.rank)
  bcast_S512x256x1_S512x256x1024_0_1_2 : S512x256x1.BroadcastsInDim S512x256x1024 (![0, 1, 2] : Fin 3 → Fin S512x256x1024.rank)
  bcast_S1x256x1024_S512x256x1024_0_1_2 : S1x256x1024.BroadcastsInDim S512x256x1024 (![0, 1, 2] : Fin 3 → Fin S512x256x1024.rank)
  reducesTo_S512x256x1024_S512x1024_d1 : S512x256x1024.ReducesTo [1] S512x1024
  h_S_ : 0 < S_.numel

variable [Facts₀]

class Facts : Prop extends Facts₀ where

variable [Facts]
-- ==== Proof.LibRows.lean ====
/-
  Rows and columns of a rank-2 array, read at an index.

  For an `[a, b]` array: a reduction along axis 1 at row `r` ranges over the entries `(r, c)`, a
  reduction along axis 0 at column `c` over the entries `(r, c)`; a vector of `a` entries cast to
  the column shape `[a, 1]` reads entry `r` at `(r, 0)`, and that column broadcast to `[a, b]`
  reads it at every `(r, c)`.  The sums are plain `Finset` sums and the maxima folds of `max` from
  the accumulator's value, for the vector unit's reductions and for the host's `reduce` alike.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.LibRows

open Idealize.ShloMosaic Idealize.ShloMosaic.ValueIdx

variable {a b : ℕ}

/-- Row `r` with lane `k` put back at axis 1 is `(r, k)`. -/
theorem lift_axis1 (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Column `c` with row `k` put back at axis 0 is `(k, c)`. -/
theorem lift_axis0 (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A lane sum of an `[a, b]` vector, at row `r`: the sum of the row's entries. -/
theorem laneSum_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ c : Fin b, src (ix2 r c) := by
  rw [Ideal.multiReduction_add_single]
  exact Finset.sum_congr rfl fun k _ => congrArg src (lift_axis1 h r k)

/-- A lane maximum of an `[a, b]` vector, at row `r`: the fold of `max` over the row from the accumulator. -/
theorem laneMax_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) := by
  rw [Ideal.multiReduction_maximumf_single]
  have hf : (src ∘ h.lift (ix1 r)) = fun c : Fin b => src (ix2 r c) :=
    funext fun k => congrArg src (lift_axis1 h r k)
  exact congrArg (fun f => Finset.fold max (Ideal.ofBits φ acc) f (Finset.univ : Finset (Fin b))) hf

/-- A sum over the rows of an `[a, b]` vector, at column `c`. -/
theorem rowSum_apply {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ r : Fin a, src (ix2 r c) := by
  rw [Ideal.multiReduction_add_single]
  exact Finset.sum_congr rfl fun k _ => congrArg src (lift_axis0 h c k)

/-- The host's `reduce` with a maximum body along axis 1 of an f32 `[a, b]` array, at row `r`: the same fold,
    from the initial value's one entry. -/
theorem hostLaneMax_apply {u : Shape} (x : (⟨2, ![a, b]⟩ : Shape).Idx → Ideal .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun c => x (ix2 r c)) := by
  rw [Host.reduce_eq_fold_single FloatOps.maximumf x init h' h hu]
  have hf : (x ∘ h.lift (ix1 r)) = fun c : Fin b => x (ix2 r c) :=
    funext fun k => congrArg x (lift_axis1 h r k)
  exact congrArg (fun f => Finset.fold max (init (Shape.Idx.first hu)) f (Finset.univ : Finset (Fin b))) hf

/-- An `[a]` vector cast to the column shape `[a, 1]` reads, at `(r, u)`, entry `r`. -/
theorem shapeCast_a_a1_apply {α : Type} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column's entry of row `r`. -/
theorem broadcastTo_a1_ab_apply {α : Type} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Cert.LibRows

end
-- ==== Proof.LibMat.lean ====
/-
  A matrix product read at an index. For the plain dimension numbers (rows × contraction times contraction × columns)
  a `tpu.matmul` into the zero accumulator, at the ideal values, is at (a, b) the sum over the contracted coordinate `c`
  of the left operand at (a, c) times the right operand at (c, b): the contraction's index set has one axis, and the sum
  over it is re-indexed by that axis's coordinate.
-/
import Idealize.ShloMosaic.PureOps.Ideal.Laws
import Idealize.ShloMosaic.Lib.ValueIdx
import Idealize.ShloMosaic.Lib.ValueLayout

noncomputable section

open scoped BigOperators

namespace Cert.LibMat

open Idealize.ShloMosaic Idealize.ShloMosaic.ValueIdx

/-- The plain dimension numbers over any witness of their well-formedness. -/
abbrev plainDims {m k n : ℕ} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- A plain matrix product into the zero accumulator, at (a, b): the sum over the contracted coordinate. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (plainDims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMat

end
-- ==== Proof.LibRowBcast.lean ====
/-
  A one-row matrix repeated along the rows, read at an index.

  A `[1, b]` row broadcast by the vector unit to `[a, b]` reads, at `(r, c)`, the row's entry of column `c`: the unit
  axis is filled, the other axis is kept.  Generic in `a` and `b`.
-/
import Idealize.ShloMosaic.Lib.ValueIdx
import Idealize.ShloMosaic.Lib.Pipeline.Value

noncomputable section

namespace Cert.LibRowBcast

open Idealize.ShloMosaic Idealize.ShloMosaic.ValueIdx

/-- A `[1, b]` row broadcast to `[a, b]` reads, at `(r, c)`, the row's entry of column `c`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ => rfl
  | ⟨1, _⟩ =>
    show c.val = if b = 1 then 0 else c.val
    split
    · have := c.isLt; omega
    · rfl

end Cert.LibRowBcast

end
-- ==== Proof.BodyValue.lean ====
/-
  What the kernel body stores, read at an index.

  At a grid point the body loads a [256, 256] block `x0` of the points, the whole [256, 1024] array `x1` of the centres
  and a [1, 1024] row `x2` (the centres' squared norms, computed before the call), and stores one [256, 1024] block.
  At (p, q) that block holds
      sqrt (max ((Σₖ x0(p,k)² + x2(0,q)) − 2 · Σₖ x0(p,k) · x1(k,q), 0)):
  the lane sum of the squares of row p, laid as a column and repeated along the columns; the row x2 repeated along the
  rows; the matrix product into the zero accumulator as the sum over the contracted coordinate (the change of float
  format in front of it is the identity at the ideal values); then pointwise operations.
-/
import proofs.«105276_j83657372991990_2_alg».proof.Proof.Gen.KernelIdeal.Skeleton
import proofs.«105276_j83657372991990_2_alg».proof.Proof.LibRows
import proofs.«105276_j83657372991990_2_alg».proof.Proof.LibMat
import proofs.«105276_j83657372991990_2_alg».proof.Proof.LibRowBcast
import Idealize.ShloMosaic.Lib.ValueIdx
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The vector unit's square root is taken entry by entry. -/
theorem sqrt_apply {s : Shape} {φ : FTy} (a : FVec Ideal s φ) (i : s.Idx) :
    Idealize.ShloMosaic.sqrt a i = Ideal.sqrt (a i) := rfl

/-- The squared norm of row `p` of the block, as the body lays it out: summed along the lanes, cast to a column,
    repeated along the 1024 columns. -/
theorem rownorm_apply (v : FVec Ideal S256x256 .f32) (hφ : FKind.Formats FTy.f32)
    (hacc : (0x00000000#32 : BitVec 32) = 0x00000000#32) (p : Fin 256) (q : Fin 1024) :
    broadcastTo S256x1024 (shapeCast S256x1 (multiReduction .add [1] S256 v 0x00000000#32 reduces_S256x256_S256 hφ hacc)
        shapeCasts_S256_S256x1) broadcasts_S256x1_S256x1024 (ix2 p q) = ∑ k : Fin 256, v (ix2 p k) :=
  (Cert.LibRows.broadcastTo_a1_ab_apply _ broadcasts_S256x1_S256x1024 p q).trans
    ((Cert.LibRows.shapeCast_a_a1_apply _ shapeCasts_S256_S256x1 p 0).trans
      (Cert.LibRows.laneSum_apply v 0x00000000#32 reduces_S256x256_S256 hφ hacc p))

/-- The row of squared norms of the centres, repeated along the 256 rows. -/
theorem normrow_apply (x2 : FVec Ideal S1x1024 .f32) (p : Fin 256) (q : Fin 1024) :
    broadcastTo S256x1024 (shapeCast S1x1024 x2 shapeCasts_S1x1024_S1x1024) broadcasts_S1x1024_S256x1024 (ix2 p q)
      = x2 (ix2 (0 : Fin 1) q) :=
  (Cert.LibRowBcast.broadcastTo_1b_ab_apply _ broadcasts_S1x1024_S256x1024 p q).trans
    (congrFun (shapeCast_self x2 shapeCasts_S1x1024_S1x1024) _)

/-- The inner products: the matrix product of the block with the centres, at (p, q). -/
theorem cross_apply (x0 : FVec Ideal S256x256 .f32) (x1 : FVec Ideal S256x1024 .f32) (p : Fin 256) (q : Fin 1024) :
    matmul (F := Ideal) dot_S256x256_S256x1024_S256x1024_1_0_0_1_n_n none (truncf .bf16 x0 bitsLt_bf16_f32)
        (truncf .bf16 x1 bitsLt_bf16_f32) (constant S256x1024 .f32 0x00000000#32) (ix2 p q)
      = ∑ k : Fin 256, x0 (ix2 p k) * x1 (ix2 k q) :=
  (Cert.LibMat.matmul_plain_apply dot_S256x256_S256x1024_S256x1024_1_0_0_1_n_n_wf none
    (truncf .bf16 x0 bitsLt_bf16_f32) (truncf .bf16 x1 bitsLt_bf16_f32) p q).trans
    (Finset.sum_congr rfl fun _ _ => rfl)

/-- THE STORED BLOCK at (p, q). -/
theorem pay_apply (x0 : FVec Ideal S256x256 .f32) (x1 : FVec Ideal S256x1024 .f32) (x2 : FVec Ideal S1x1024 .f32)
    (p : Fin 256) (q : Fin 1024) :
    k0_pay1 (F := Ideal) x0 x1 x2 (ix2 p q)
      = Ideal.sqrt (max (((∑ k : Fin 256, x0 (ix2 p k) * x0 (ix2 p k)) + x2 (ix2 (0 : Fin 1) q))
            - Ideal.ofBits .f32 0x40000000#32 * ∑ k : Fin 256, x0 (ix2 p k) * x1 (ix2 k q))
          (Ideal.ofBits .f32 0x00000000#32)) := by
  unfold k0_pay1
  simp only [sqrt_apply, maximumf_apply, subf_apply, addf_apply, mulf_apply, broadcast_apply]
  refine congrArg Ideal.sqrt (congrArg (max · _) (congrArg₂ (· - ·) (congrArg₂ (· + ·) ?_ ?_) (congrArg (_ * ·) ?_)))
  · exact (rownorm_apply (mulf x0 x0) _ _ p q).trans (Finset.sum_congr rfl fun _ _ => rfl)
  · exact normrow_apply x2 p q
  · exact cross_apply x0 x1 p q

end Cert.KernelIdeal.Body

end
-- ==== Proof.LibHostLayout.lean ====
/-
  The host's broadcasts of vectors into matrices, read at an index.

  A vector of `n` entries laid as the one row of a `[1, n]` matrix reads entry `t` at `(0, t)`; a vector of `a`
  entries laid as the one column of an `[a, 1]` matrix reads entry `r` at `(r, 0)`; and that column repeated along
  `b` columns reads, at `(r, c)`, the column's entry of row `r`.
-/
import Idealize.ShloMosaic.Lib.ValueIdx
import Idealize.ShloMosaic.Lib.ValueLayout
import Idealize.ShloMosaic.Lib.Pipeline.Value

noncomputable section

namespace Cert.LibHostLayout

open Idealize.ShloMosaic Idealize.ShloMosaic.ValueIdx

variable {α : Type}

/-- A vector laid as the one row of a matrix: at `(u, t)` it reads entry `t`. -/
theorem bcast_vec_row_apply {n : ℕ} (h : (⟨1, ![n]⟩ : Shape).BroadcastsInDim ⟨2, ![1, n]⟩ ![1])
    (x : (⟨1, ![n]⟩ : Shape).Idx → α) (u : Fin 1) (t : Fin n) :
    broadcastInDim ⟨2, ![1, n]⟩ ![1] h x (ix2 u t) = x (ix1 t) := by
  refine broadcastInDim_apply ![1] h x (ix2 u t) (ix1 t) ?_
  intro a
  fin_cases a
  show t.val = if n = 1 then 0 else t.val
  split_ifs with hn
  · have := t.isLt; omega
  · rfl

/-- A vector laid as the one column of a matrix: at `(r, u)` it reads entry `r`. -/
theorem bcast_vec_col_apply {a : ℕ} (h : (⟨1, ![a]⟩ : Shape).BroadcastsInDim ⟨2, ![a, 1]⟩ ![0])
    (x : (⟨1, ![a]⟩ : Shape).Idx → α) (r : Fin a) (u : Fin 1) :
    broadcastInDim ⟨2, ![a, 1]⟩ ![0] h x (ix2 r u) = x (ix1 r) := by
  refine broadcastInDim_apply ![0] h x (ix2 r u) (ix1 r) ?_
  intro k
  fin_cases k
  show r.val = if a = 1 then 0 else r.val
  split_ifs with hn
  · have := r.isLt; omega
  · rfl

/-- A one-column matrix repeated along `b` columns: at `(r, c)` it reads the column's entry of row `r`. -/
theorem bcast_col_apply {a b : ℕ} (h : (⟨2, ![a, 1]⟩ : Shape).BroadcastsInDim ⟨2, ![a, b]⟩ ![0, 1])
    (y : (⟨2, ![a, 1]⟩ : Shape).Idx → α) (r : Fin a) (c : Fin b) :
    broadcastInDim ⟨2, ![a, b]⟩ ![0, 1] h y (ix2 r c) = y (ix2 r (0 : Fin 1)) := by
  refine broadcastInDim_apply ![0, 1] h y (ix2 r c) (ix2 r (0 : Fin 1)) ?_
  intro k
  fin_cases k
  · show r.val = if a = 1 then 0 else r.val
    split_ifs with hn
    · have := r.isLt; omega
    · rfl
  · show (0 : ℕ) = if (1 : ℕ) = 1 then 0 else _
    simp

end Cert.LibHostLayout

end
-- ==== Proof.CentreNorms.lean ====
/-
  The row of the centres' squared norms, as the kernel call finds it.

  Before the call the host squares the [256, 1024] array of centres entry by entry, sums the squares along the 256
  coordinates from the word of `+0.0`, and lays the 1024 sums as the one row of a [1, 1024] array.  So the third operand of
  the call holds, at (0, q), the word of `+0.0` plus the sum over k of w(k, q)².
-/
import proofs.«105276_j83657372991990_2_alg».proof.Proof.Gen.KernelIdeal.Frame
import proofs.«105276_j83657372991990_2_alg».proof.Proof.LibHostLayout
import Idealize.ShloMosaic.Lib.StableHlo.Run
import Idealize.ShloMosaic.Lib.ValueIdx
import Idealize.ShloMosaic.PureOps.Ideal.Laws

noncomputable section

open scoped BigOperators

namespace Cert.KernelIdeal.Norms

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The host's three operations on the centres: square, sum along the coordinates, lay as one row. -/
def normRow (w : FVec Ideal S256x1024 .f32) : FVec Ideal S1x1024 .f32 :=
  broadcastInDim S1x1024 ![1] bcast_S1024_S1x1024_1
    (Host.reduceAdd (F := Ideal) (mulf w w) (constant (F := Ideal) S_ .f32 0x00000000#32) reducesTo_S256x1024_S1024_d0 h_S_)

/-- The call's third operand, when the call is entered, is that row of the centres as launched. -/
theorem V_norms (c : Dev nD) :
    (V m c main_v2 : S1x1024.Idx → EReal) = normRow (m ((c : Thread nD τ).loc main_arg1)) := by
  dsimp only [Gen.V, Gen.hostOps0]; after_results; rfl

/-- The row at (u, q): the word of `+0.0` plus the sum of the squares of column q. -/
theorem normRow_apply (w : FVec Ideal S256x1024 .f32) (u : Fin 1) (q : Fin 1024) :
    normRow w (ix2 u q) = Ideal.ofBits .f32 0x00000000#32 + ∑ k : Fin 256, w (ix2 k q) * w (ix2 k q) := by
  unfold normRow
  rw [Cert.LibHostLayout.bcast_vec_row_apply]
  simp only [Host.reduceAdd, Ideal.hostReduceAdd_def]
  rw [Ideal.hostReduceAdd_single reducesTo_S256x1024_S1024_d0 (by decide)]
  refine congrArg (_ + ·) (Finset.sum_congr rfl fun k _ => ?_)
  exact congrArg (mulf w w) (funext fun a => Fin.ext (by match a with | ⟨0, _⟩ => rfl | ⟨1, _⟩ => rfl))

end Cert.KernelIdeal.Norms

end
-- ==== Proof.Words.lean ====
/-
  The three float words the programs and the precondition spell, as the extended reals they denote:
  `+0.0` is 0, `2.0` is 2, and the word of `+inf` is the top element.
-/
import Idealize.ShloMosaic.PureOps.Ideal

noncomputable section

namespace Cert.Words

open Idealize.ShloMosaic

/-- The word of `+0.0` denotes 0. -/
theorem word_zero : Ideal.ofBits .f32 0x00000000#32 = 0 := by
  simp [Ideal.ofBits, Ideal.ieee]

/-- The word of `2.0` denotes the real 2. -/
theorem word_two : Ideal.ofBits .f32 0x40000000#32 = ((2 : ℝ) : EReal) := by
  simp [Ideal.ofBits, Ideal.ieee, -EReal.coe_mul]; norm_num

/-- The word of `+inf` denotes the top element. -/
theorem word_inf : Ideal.ofBits .f32 0x7F800000#32 = ⊤ := by
  simp [Ideal.ofBits, Ideal.ieee]

end Cert.Words

end
-- ==== Proof.Distance.lean ====
/-
  The pairwise Euclidean distance, written two ways, and the law that joins them.

  For a point `x b` (row `b` of a [512, 256] array) and a point `w · o` (column `o` of a [256, 1024] array):
  * `direct`   : the square root of the sum over the 256 coordinates of the squared differences;
  * `expanded` : the square root of  max (|x b|² + |w · o|² − 2 · ⟨x b, w · o⟩, 0).
  On the extended reals the two differ at infinite entries (∞ − ∞), so the law is stated for arrays all of whose
  entries are real numbers: there  Σ (x − w)² = Σ x² + Σ w² − 2 Σ x·w  holds term by term, the sum of squares is
  nonnegative, and the maximum with 0 leaves it as it is.
-/
import Idealize.ShloMosaic.PureOps.Ideal
import Idealize.ShloMosaic.Lib.ValueIdx
import proofs.«105276_j83657372991990_2_alg».proof.Proof.Words

noncomputable section

open scoped BigOperators

namespace Cert.Distance

open Idealize.ShloMosaic Idealize.ShloMosaic.ValueIdx

/-- The coercion of the reals into the extended reals commutes with finite sums. -/
theorem coe_sum {ι : Type*} (s : Finset ι) (h : ι → ℝ) : ((∑ k ∈ s, h k : ℝ) : EReal) = ∑ k ∈ s, (h k : EReal) := by
  classical
  induction s using Finset.induction_on with
  | empty => simp
  | insert a s ha ih => rw [Finset.sum_insert ha, Finset.sum_insert ha, EReal.coe_add, ih]

/-- THE LAW over any finite coordinate set, for real coordinates: the expanded square, clamped at 0 from below, is the
    sum of the squared differences. -/
theorem expand_real {ι : Type*} [Fintype ι] (f g : ι → ℝ) :
    max (((∑ k, (f k : EReal) * (f k : EReal)) + ((0 : EReal) + ∑ k, (g k : EReal) * (g k : EReal)))
          - ((2 : ℝ) : EReal) * ∑ k, (f k : EReal) * (g k : EReal)) (0 : EReal)
      = (0 : EReal) + ∑ k, ((f k : EReal) - (g k : EReal)) * ((f k : EReal) - (g k : EReal)) := by
  have key : (∑ k, f k * f k) + (0 + ∑ k, g k * g k) - 2 * ∑ k, f k * g k = 0 + ∑ k, (f k - g k) * (f k - g k) := by
    rw [zero_add, zero_add, Finset.mul_sum, ← Finset.sum_add_distrib, ← Finset.sum_sub_distrib]
    exact Finset.sum_congr rfl fun k _ => by ring
  have hnn : (0 : ℝ) ≤ 0 + ∑ k, (f k - g k) * (f k - g k) := by
    rw [zero_add]; exact Finset.sum_nonneg fun k _ => mul_self_nonneg _
  have eA : (∑ k, (f k : EReal) * (f k : EReal)) = ((∑ k, f k * f k : ℝ) : EReal) := by
    rw [coe_sum]; exact Finset.sum_congr rfl fun k _ => (EReal.coe_mul _ _).symm
  have eB : (∑ k, (g k : EReal) * (g k : EReal)) = ((∑ k, g k * g k : ℝ) : EReal) := by
    rw [coe_sum]; exact Finset.sum_congr rfl fun k _ => (EReal.coe_mul _ _).symm
  have eC : (∑ k, (f k : EReal) * (g k : EReal)) = ((∑ k, f k * g k : ℝ) : EReal) := by
    rw [coe_sum]; exact Finset.sum_congr rfl fun k _ => (EReal.coe_mul _ _).symm
  have eD : (∑ k, ((f k : EReal) - (g k : EReal)) * ((f k : EReal) - (g k : EReal)))
      = ((∑ k, (f k - g k) * (f k - g k) : ℝ) : EReal) := by
    rw [coe_sum]; exact Finset.sum_congr rfl fun k _ => by rw [EReal.coe_mul, EReal.coe_sub]
  rw [eA, eB, eC, eD, ← EReal.coe_zero, ← EReal.coe_add, ← EReal.coe_add, ← EReal.coe_mul, ← EReal.coe_sub, ← EReal.coe_add,
    key]
  exact max_eq_left (EReal.coe_le_coe_iff.mpr hnn)

/-- The direct form at (b, o): the square root of the sum of the squared coordinate differences (from the sum's initial
    value, the word of `+0.0`). -/
def directAt (x : (⟨2, ![512, 256]⟩ : Shape).Idx → EReal) (w : (⟨2, ![256, 1024]⟩ : Shape).Idx → EReal)
    (b : Fin 512) (o : Fin 1024) : EReal :=
  Ideal.sqrt (Ideal.ofBits .f32 0x00000000#32
    + ∑ k : Fin 256, (x (ix2 b k) - w (ix2 k o)) * (x (ix2 b k) - w (ix2 k o)))

/-- The expanded form at (b, o): squared norm of the row plus squared norm of the column (a sum from the word of
    `+0.0`) minus twice (the word of `2.0`) their inner product, clamped at the word of `+0.0`, under the root. -/
def expandedAt (x : (⟨2, ![512, 256]⟩ : Shape).Idx → EReal) (w : (⟨2, ![256, 1024]⟩ : Shape).Idx → EReal)
    (b : Fin 512) (o : Fin 1024) : EReal :=
  Ideal.sqrt (max (((∑ k : Fin 256, x (ix2 b k) * x (ix2 b k))
        + (Ideal.ofBits .f32 0x00000000#32 + ∑ k : Fin 256, w (ix2 k o) * w (ix2 k o)))
      - Ideal.ofBits .f32 0x40000000#32 * ∑ k : Fin 256, x (ix2 b k) * w (ix2 k o))
    (Ideal.ofBits .f32 0x00000000#32))

/-- The distance array in the direct form. -/
def direct (x : (⟨2, ![512, 256]⟩ : Shape).Idx → EReal) (w : (⟨2, ![256, 1024]⟩ : Shape).Idx → EReal) :
    (⟨2, ![512, 1024]⟩ : Shape).Idx → EReal := fun i => directAt x w (i 0) (i 1)

/-- The distance array in the expanded form. -/
def expanded (x : (⟨2, ![512, 256]⟩ : Shape).Idx → EReal) (w : (⟨2, ![256, 1024]⟩ : Shape).Idx → EReal) :
    (⟨2, ![512, 1024]⟩ : Shape).Idx → EReal := fun i => expandedAt x w (i 0) (i 1)

/-- On arrays of real entries the expanded form is the direct form. -/
theorem expanded_eq_direct (x : (⟨2, ![512, 256]⟩ : Shape).Idx → EReal) (w : (⟨2, ![256, 1024]⟩ : Shape).Idx → EReal)
    (hx : ∀ j, ∃ r : ℝ, x j = (r : EReal)) (hw : ∀ j, ∃ r : ℝ, w j = (r : EReal)) :
    expanded x w = direct x w := by
  choose xr hxr using hx
  choose wr hwr using hw
  funext i
  show expandedAt x w (i 0) (i 1) = directAt x w (i 0) (i 1)
  unfold expandedAt directAt
  simp only [hxr, hwr, Cert.Words.word_zero, Cert.Words.word_two]
  exact congrArg Ideal.sqrt (expand_real (fun k => xr (ix2 (i 0) k)) (fun k => wr (ix2 k (i 1))))

end Cert.Distance

end
-- ==== Proof.WholeArray.lean ====
/-
  From the blocks the grid points write to the whole result array.

  The grid has two points.  Point t stages rows 256·t … 256·t + 255 of the points' array, the whole array of centres and
  the whole row of the centres' squared norms, and writes back rows 256·t … 256·t + 255 of the result.  What it writes at
  row p, column q of its block is the stored block of the body (the expanded form of the distance) of those staged
  values, that is, the expanded distance array of the two argument arrays at row 256·t + p, column q.  The two blocks
  cover the result array (row r is in the block of point r / 256), so after the run the result array is the expanded
  distance array of the arguments.
-/
import proofs.«105276_j83657372991990_2_alg».proof.Proof.Gen.KernelIdeal.Value
import proofs.«105276_j83657372991990_2_alg».proof.Proof.BodyValue
import proofs.«105276_j83657372991990_2_alg».proof.Proof.CentreNorms
import proofs.«105276_j83657372991990_2_alg».proof.Proof.Distance
import Idealize.ShloMosaic.Lib.Pipeline.Value
import Idealize.ShloMosaic.Lib.ValueIdx

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the two grid points: the points' window and the result's window move with the point
    along the rows; the centres' and the norms' windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 2 :=
  (by decide +kernel : ∀ t : Fin grid0.N, _)

/-- ONE ENTRY of one block: if the staged values are rows 256·T … of the points, the centres, and the centres'
    squared norms, then the stored block at (p, q) is the expanded distance array at (256·T + p, q). -/
theorem point_eq (X : FVec Ideal S512x256 .f32) (W : FVec Ideal S256x1024 .f32)
    (x0 : FVec Ideal S256x256 .f32) (x1 : FVec Ideal S256x1024 .f32) (x2 : FVec Ideal S1x1024 .f32)
    (T : ℕ) (hT : T < 2)
    (h0 : ∀ (p k : Fin 256), x0 (ix2 p k) = X (ix2 (⟨T * 256 + p.val, by omega⟩ : Fin 512) k))
    (h1 : ∀ (k : Fin 256) (q : Fin 1024), x1 (ix2 k q) = W (ix2 k q))
    (h2 : ∀ q : Fin 1024, x2 (ix2 (0 : Fin 1) q)
      = Ideal.ofBits .f32 0x00000000#32 + ∑ k : Fin 256, W (ix2 k q) * W (ix2 k q))
    (p : Fin 256) (q : Fin 1024) (i : S512x1024.Idx) (hi0 : (i 0).val = T * 256 + p.val) (hi1 : (i 1).val = q.val) :
    k0_pay1 (F := Ideal) x0 x1 x2 (ix2 p q) = Cert.Distance.expanded X W i := by
  rw [Cert.KernelIdeal.Body.pay_apply]
  show _ = Cert.Distance.expandedAt X W (i 0) (i 1)
  have e0 : (i 0 : Fin 512) = ⟨T * 256 + p.val, by omega⟩ := Fin.ext hi0
  have e1 : (i 1 : Fin 1024) = q := Fin.ext hi1
  rw [e0, e1]
  unfold Cert.Distance.expandedAt
  simp only [h0, h1, h2]
  rfl

/-- WHAT POINT `t` WRITES BACK is block `t` of the expanded distance array of the arrays as the call finds them. -/
theorem flushed_eq (c : Dev nD) (t : Fin cfg0.N) :
    (dats m 0 c).flushed 3 t = ((cfg0.win 3).blk t).view.read (Elt Ideal)
      (Cert.Distance.expanded (V m c main_arg0) (V m c main_arg1)) := by
  rw [Cert.KernelIdeal.Value.flushed3]
  unfold out0_3
  rw [View.canon_unit_zero hz]
  simp only [View.ld_unit_zero (S := S256x256) hz, View.ld_unit_zero (S := S256x1024) hz,
    View.ld_unit_zero (S := S1x1024) hz]
  obtain ⟨a0, a1, b0, b1, c0, c1, d0, d1, ht⟩ := idx_facts t
  funext j
  show k0_pay1 (F := Ideal) (iblk m c 0 t) (iblk m c 1 t) (iblk m c 2 t) j
    = Cert.Distance.expanded (V m c main_arg0) (V m c main_arg1) (((cfg0.win 3).blk t).view.emb j)
  refine (congrArg (k0_pay1 (F := Ideal) (iblk m c 0 t) (iblk m c 1 t) (iblk m c 2 t))
    (eq_ix2 (n0 := 256) (n1 := 1024) j)).trans ?_
  refine point_eq (V m c main_arg0) (V m c main_arg1) (iblk m c 0 t) (iblk m c 1 t) (iblk m c 2 t) t.val ht
    ?_ ?_ ?_ (j 0) (j 1) (((cfg0.win 3).blk t).view.emb j) ?_ ?_
  · intro p k
    show V m c main_arg0 (((cfg0.win 0).blk t).view.emb (ix2 p k)) = V m c main_arg0 _
    refine congrArg _ (funext fun a => Fin.ext ?_)
    match a with
    | ⟨0, _⟩ => show win0_0.index t (0 : Fin 2) * 256 + 1 * p.val = t.val * 256 + p.val; rw [a0]; omega
    | ⟨1, _⟩ => show win0_0.index t (1 : Fin 2) * 256 + 1 * k.val = k.val; rw [a1]; omega
  · intro k q
    show V m c main_arg1 (((cfg0.win 1).blk t).view.emb (ix2 k q)) = V m c main_arg1 _
    refine congrArg _ (funext fun a => Fin.ext ?_)
    match a with
    | ⟨0, _⟩ => show win0_1.index t (0 : Fin 2) * 256 + 1 * k.val = k.val; rw [b0]; omega
    | ⟨1, _⟩ => show win0_1.index t (1 : Fin 2) * 1024 + 1 * q.val = q.val; rw [b1]; omega
  · intro q
    show V m c main_v2 (((cfg0.win 2).blk t).view.emb (ix2 (0 : Fin 1) q)) = _
    have e : ((cfg0.win 2).blk t).view.emb (ix2 (0 : Fin 1) q) = ix2 (0 : Fin 1) q :=
      funext fun a => Fin.ext (by
        match a with
        | ⟨0, _⟩ => show win0_2.index t (0 : Fin 2) * 1 + 1 * 0 = 0; rw [c0]
        | ⟨1, _⟩ => show win0_2.index t (1 : Fin 2) * 1024 + 1 * q.val = q.val; rw [c1]; omega)
    rw [e, Cert.KernelIdeal.Norms.V_norms m c, Cert.KernelIdeal.Norms.normRow_apply, V_main_arg1]
  · show win0_3.index t (0 : Fin 2) * 256 + 1 * (j 0).val = t.val * 256 + (j 0).val; rw [d0]; omega
  · show win0_3.index t (1 : Fin 2) * 1024 + 1 * (j 1).val = (j 1).val; rw [d1]; omega

/-- An index of the result array is in point `t`'s block iff each coordinate is in the block's range on its axis. -/
theorem mem_blk (t : Fin cfg0.N) (i : S512x1024.Idx) :
    i ∈ ((cfg0.win 3).blk t).view.set ↔ ∀ a : Fin 2, win0_3.index t a * S256x1024.size a ≤ (i a).val
      ∧ (i a).val < win0_3.index t a * S256x1024.size a + S256x1024.size a := by
  show i ∈ ((View.whole main_v3).slice (win0_3.rect t)).set ↔ _
  rw [View.set_slice_whole, Rect.mem_set_unit]
  exact Iff.rfl

/-- THE COVER: row r of the result array is in the block of point r / 256. -/
theorem cover (i : S512x1024.Idx) :
    ∃ t : Fin cfg0.N, (cfg0.win 3).flush t = true ∧ i ∈ ((cfg0.win 3).blk t).view.set := by
  have hi0 : (i 0).val < 512 := (i 0).isLt
  have hi1 : (i 1).val < 1024 := (i 1).isLt
  have hN : cfg0.N = 2 := N_0
  obtain ⟨t, ht⟩ : ∃ t : Fin cfg0.N, t.val = (i 0).val / 256 := ⟨⟨(i 0).val / 256, by rw [hN]; omega⟩, rfl⟩
  obtain ⟨_, _, _, _, _, _, d0, d1, _⟩ := idx_facts t
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    rw [d0, ht]; omega
  | ⟨1, _⟩ =>
    show win0_3.index t (1 : Fin 2) * 1024 ≤ (i 1).val ∧ (i 1).val < win0_3.index t (1 : Fin 2) * 1024 + 1024
    rw [d1]; omega

/-- THE RESULT ARRAY after the run: the expanded distance array of the two arguments as launched. -/
theorem final (c : Dev nD) :
    (dats m 0 c).arrAt 3 cfg0.N
      = Cert.Distance.expanded (m ((c : Thread nD τ).loc main_arg0)) (m ((c : Thread nD τ).loc main_arg1)) :=
  ((dats m 0 c).arrAt_eq_of_cover 3 _ (fun t _ => flushed_eq m c t) cover).trans
    (by rw [V_main_arg0, V_main_arg1])

/-- The kernel's run, read: the result array at the expanded distance array of the arguments, the arguments unchanged. -/
theorem run : θ_run defs (onTc (τ := τ) (main (F := Ideal))) ⟨m, fun _ => 0, ρ⟩ fun r => ∀ c : Dev nD,
      r.2.mem ((c : Thread nD τ).loc main_v3)
        = Cert.Distance.expanded (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Whole

end
-- ==== Proof.RefDistance.lean ====
/-
  The reference computes the direct form of the distance.

  Read one operation at a time: the two arrays are laid along a third axis and repeated to [512, 256, 1024], so that entry
  (b, k, o) of the one is x(b, k) and of the other w(k, o); they are subtracted and the difference squared entry by entry;
  the squares are summed along the middle axis from the word of `+0.0`; the square root is taken.  At (b, o) that is the
  direct form.
-/
import proofs.«105276_j83657372991990_2_alg».proof.Proof.Gen.ReferenceIdeal.Read
import proofs.«105276_j83657372991990_2_alg».proof.Proof.Distance
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

/-- The reference's result, as a function of its two arguments, is the direct distance array. -/
theorem ref_eq_direct (x : FVec Ideal S512x256 .f32) (w : FVec Ideal S256x1024 .f32) :
    val_main_v7 (F := Ideal) x w = Cert.Distance.direct x w := by
  funext i
  have ex : ∀ k : Fin 256, idx_main_v0 (idx_main_v2 (idx_main_v6 i k)) = ix2 (n0 := 512) (n1 := 256) (i 0) k :=
    fun k => funext fun a => Fin.ext (by match a with | ⟨0, _⟩ => rfl | ⟨1, _⟩ => rfl)
  have ew : ∀ k : Fin 256, idx_main_v1 (idx_main_v3 (idx_main_v6 i k)) = ix2 (n0 := 256) (n1 := 1024) k (i 1) :=
    fun k => funext fun a => Fin.ext (by match a with | ⟨0, _⟩ => rfl | ⟨1, _⟩ => rfl)
  show _ = Cert.Distance.directAt x w (i 0) (i 1)
  unfold Cert.Distance.directAt
  rw [val_main_v7_apply, val_main_v6_apply]
  simp only [val_main_v5_apply, val_main_v4_apply, val_main_v2_apply, val_main_v3_apply, val_main_v0_apply,
    val_main_v1_apply, val_main_cst_apply, ex, ew, Ideal.hostUnary_sqrt_def, Ideal.subf_def, Ideal.mulf_def,
    Ideal.ofBits_def]

end Cert.ReferenceIdeal.RefValue

end
-- ==== Proof.Finite.lean ====
/-
  What the precondition gives: every entry of both argument arrays is a real number.

  The precondition is the conjunction of two `all`s, one per array, of the entrywise test |a| < +inf.  On the extended
  reals |a| is max a (−a), which is the top element at both infinities, and the word of +inf is the top element; so the
  test holds exactly at the real numbers.
-/
import proofs.«105276_j83657372991990_2_alg».proof.Pre_finite_inputs
import proofs.«105276_j83657372991990_2_alg».proof.Proof.Words
import Idealize.ShloMosaic.PureOps.Ideal
import Idealize.ShloMosaic.Lib.ValueIdx
import Idealize.ShloMosaic.Lib.ReduceAll

noncomputable section

namespace Cert.Finite

open Idealize.ShloMosaic

instance : Subsingleton (Cert.Pre_finite_inputs.S_).Idx := ⟨fun _ _ => funext fun d => d.elim0⟩

/-- An extended real whose absolute value is below the word of +inf is a real number. -/
theorem real_of_abs_lt (a : EReal)
    (h : Ideal.cmp .olt (max a (-a)) (Ideal.ofBits .f32 0x7F800000#32) = 1#1) : ∃ r : ℝ, a = (r : EReal) := by
  rw [Cert.Words.word_inf] at h
  induction a using EReal.rec with
  | bot => simp [Ideal.cmp] at h
  | coe r => exact ⟨r, rfl⟩
  | top => simp [Ideal.cmp] at h

/-- Under the precondition every entry of both arrays is a real number. -/
theorem entries_real [Cert.Pre_finite_inputs.Facts]
    (x : FVec Ideal Cert.Pre_finite_inputs.S512x256 .f32) (w : FVec Ideal Cert.Pre_finite_inputs.S256x1024 .f32)
    (h : Cert.Pre_finite_inputs.fn (F := Ideal) x w = fun _ => 1#1) :
    (∀ j, ∃ r : ℝ, x j = (r : EReal)) ∧ (∀ j, ∃ r : ℝ, w j = (r : EReal)) := by
  have h0 := congrFun h ValueIdx.ix0
  dsimp only [Cert.Pre_finite_inputs.fn] at h0
  obtain ⟨hx, hw⟩ := IntOp.andi_eq_one.1 h0
  exact ⟨fun j => real_of_abs_lt _ (Host.reduce_andi_all _ _ _ _ _ hx j),
    fun j => real_of_abs_lt _ (Host.reduce_andi_all _ _ _ _ _ hw j)⟩

end Cert.Finite

end
-- ==== Proof.lean ====
/-
  Pairwise Euclidean distances: output(b, o) = ‖x(b, ·) − w(·, o)‖₂ for x of shape [512, 256] and w of shape [256, 1024].

  The reference subtracts, squares, sums along the 256 coordinates and takes the root (the direct form).  The kernel
  expands the square: before the call the host sums the squares of each column of w; at each of the two grid points the
  body sums the squares of each of its 256 rows of x, multiplies its rows with w on the matrix unit (the change of float
  format in front of the product is the identity at the ideal values), forms  |x|² + |w|² − 2⟨x, w⟩, clamps it at 0 from
  below and takes the root (the expanded form).

  On the extended reals the two forms are different functions (at an infinite entry the expanded form meets ∞ − ∞), so
  the precondition is used: every entry of both arrays is a real number.  For real entries
      Σₖ (x(b,k) − w(k,o))² = Σₖ x(b,k)² + Σₖ w(k,o)² − 2 Σₖ x(b,k) w(k,o),
  the left side is nonnegative, so the clamp is the identity, and both programs take the same root of the same number.

  The modules: Words (the three literal words), Distance (the two forms and the law), Finite (the precondition gives real
  entries), RefDistance (the reference is the direct form), BodyValue (one stored block, read at an index), CentreNorms
  (the host's row of squared norms), WholeArray (the two blocks make the expanded form of the whole arrays); here, the
  frames and the two runs set side by side.
-/
import proofs.«105276_j83657372991990_2_alg».proof.Defs
import proofs.«105276_j83657372991990_2_alg».proof.Proof.Gen.Kernel
import proofs.«105276_j83657372991990_2_alg».proof.Proof.Gen.Kernel.Frame
import proofs.«105276_j83657372991990_2_alg».proof.Proof.Gen.KernelIdeal
import proofs.«105276_j83657372991990_2_alg».proof.Proof.Gen.KernelIdeal.Frame
import proofs.«105276_j83657372991990_2_alg».proof.Proof.Gen.KernelIdeal.Value
import proofs.«105276_j83657372991990_2_alg».proof.Proof.Gen.ReferenceIdeal
import proofs.«105276_j83657372991990_2_alg».proof.Proof.Gen.ReferenceIdeal.Run
import proofs.«105276_j83657372991990_2_alg».proof.Proof.Gen.ReferenceIdeal.Read
import proofs.«105276_j83657372991990_2_alg».proof.Proof.Gen.Pre_finite_inputs
import proofs.«105276_j83657372991990_2_alg».proof.Proof.WholeArray
import proofs.«105276_j83657372991990_2_alg».proof.Proof.RefDistance
import proofs.«105276_j83657372991990_2_alg».proof.Proof.Finite
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two programs, from memories agreeing on the arguments, end with the same distance array: the kernel's is the
    expanded form of the arguments, the reference's the direct form, and the arguments' entries are real numbers. -/
theorem algebraic : Cert.algebraic_KernelIdeal_ReferenceIdeal := by
  intro m ρ m' ρ' hpre hagree
  refine ⟨fun c => Cert.Distance.expanded (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.Finite.entries_real _ _ (hpre c)
  rw [Cert.ReferenceIdeal.Read.val_main_v7_eq, Cert.ReferenceIdeal.RefValue.ref_eq_direct, (hagree c).1, (hagree c).2]
  exact (Cert.Distance.expanded_eq_direct _ _ hx hw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
